-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 59
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S50000x64, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x64, .f32⟩
  | .hbm, ⟨53, _⟩ => ⟨S_, .f32⟩
  | .hbm, ⟨54, _⟩ => ⟨S50000x64, .f32⟩
  | .hbm, ⟨55, _⟩ => ⟨S850000x1, .i32⟩
  | .hbm, ⟨56, _⟩ => ⟨S50000x64, .f32⟩
  | .hbm, ⟨57, _⟩ => ⟨S1x64, .f32⟩
  | .hbm, ⟨58, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Result.lean ====
/-
  The idealized kernel's run with its result named.

  Every weakly fair execution of the program — three grid launches among stretches of host operations — terminates,
  nothing faulting, with the result buffer at the contents the last launch's write-backs leave (the fold of the
  program's segments from the launch memory, the last boundary's contents) and the argument arrays as launched.
-/
import proofs.«117799_j26852135534760_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v40) = V8 m ρ c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.HostSide.lean ====
/-
  The host operations of the idealized kernel's program, read as values.

  From the edge array the host builds, once: the source and destination columns (the edges' endpoints followed by one
  self-loop per node), the degree of every node (a sum of ones over the destination column), and the node factors
  (the inverse square root of a positive degree, else 0), kept as a column. Between launches it aggregates: every
  row of the launch's result is read at its edge's source (a negative source wrapped by the node count first), and
  the rows are summed into their destinations. Here each buffer a launch reads is named as that term of the buffers
  before the stretch, for any contents before it.
-/
import proofs.«117799_j26852135534760_2_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- Row `k` of the edge array followed by the nodes' own numbers: the edges' endpoints with a self-loop per node. -/
def endpoints0 (x1 : IVec S2x800000 32) : IVec S850000 32 :=
  concatenate S850000 0 [⟨S800000, shapeCast _ (extractStridedSlice S1x800000 ![0, 0] x1 slices_S2x800000_S1x800000_0_0) shapeCasts_S1x800000_S800000⟩,
    ⟨S50000, iotaInDim S50000 32 0⟩] concatenates_S800000_S50000_S850000_d0

def endpoints1 (x1 : IVec S2x800000 32) : IVec S850000 32 :=
  concatenate S850000 0 [⟨S800000, shapeCast _ (extractStridedSlice S1x800000 ![1, 0] x1 slices_S2x800000_S1x800000_1_0) shapeCasts_S1x800000_S800000⟩,
    ⟨S50000, iotaInDim S50000 32 0⟩] concatenates_S800000_S50000_S850000_d0

/-- A column of indices as the one-column matrix a gather or a scatter takes. -/
def asColumn (v : IVec S850000 32) : IVec S850000x1 32 := broadcastInDim S850000x1 ![0] bcast_S850000_S850000x1_0 v

/-- The node degrees: ones summed into the destinations. -/
def degree (x1 : IVec S2x800000 32) : FVec F S50000 .f32 :=
  Host.scatterAdd scatter_S50000_S850000x1_S850000_n_0_0_1 (broadcastInDim S50000 ![] bcast_S_S50000 (constant S_ .f32 0x00000000#32))
    (asColumn (endpoints1 x1)) (broadcastInDim S850000 ![] bcast_S_S850000 (constant S_ .f32 0x3F800000#32))

/-- The node factors: the inverse square root of a positive degree, else 0. -/
def factor (x1 : IVec S2x800000 32) : FVec F S50000 .f32 :=
  select (cmpf .ogt (degree (F := F) x1) (broadcastInDim S50000 ![] bcast_S_S50000 (constant S_ .f32 0x00000000#32)))
    (Host.rsqrt (degree (F := F) x1)) (broadcastInDim S50000 ![] bcast_S_S50000 (id (constant S_ .f32 0x00000000#32)))

/-- The factors as a column. -/
def factorCol (x1 : IVec S2x800000 32) : FVec F S50000x1 .f32 := shapeCast _ (factor (F := F) x1) shapeCasts_S50000_S50000x1

/-- A negative index wrapped by the node count. -/
def wrapped (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The aggregation of 128-wide rows: gathered at the wrapped sources, summed into the destinations. -/
def aggregate128 (src dst : IVec S850000 32) (y : FVec F S50000x128 .f32) : FVec F S50000x128 .f32 :=
  Host.scatterAdd scatter_S50000x128_S850000x1_S850000x128_1_0_0_1 (broadcastInDim S50000x128 ![] bcast_S_S50000x128 (constant S_ .f32 0x00000000#32))
    (asColumn dst) (Host.gather gather_S50000x128_S850000x1_S850000x128_1_0_n_n_0_1_1128 y (asColumn (wrapped src)))

/-- The aggregation of 64-wide rows. -/
def aggregate64 (src dst : IVec S850000 32) (y : FVec F S50000x64 .f32) : FVec F S50000x64 .f32 :=
  Host.scatterAdd scatter_S50000x64_S850000x1_S850000x64_1_0_0_1 (broadcastInDim S50000x64 ![] bcast_S_S50000x64 (constant S_ .f32 0x00000000#32))
    (asColumn dst) (Host.gather gather_S50000x64_S850000x1_S850000x64_1_0_n_n_0_1_164 y (asColumn (wrapped src)))

/-! ## Before the first launch -/

section First
variable (m : (ℓ : Loc nD τ sig) → Buf (Elt F) ℓ) (ρ : Dev nD → PrngReg) (c : Dev nD)

theorem first_src : W3 m ρ c (Proc.devRef .tc main_v3) = endpoints0 (m ((c : Thread nD τ).loc main_arg1)) := by
  show after hostOps0_2 (after hostOps0_1 (after hostOps0 (W0 m ρ c))) (Proc.devRef .tc main_v3) = _
  after_results; rfl

theorem first_dst : W3 m ρ c (Proc.devRef .tc main_v6) = endpoints1 (m ((c : Thread nD τ).loc main_arg1)) := by
  show after hostOps0_2 (after hostOps0_1 (after hostOps0 (W0 m ρ c))) (Proc.devRef .tc main_v6) = _
  after_results; rfl

set_option maxHeartbeats 8000000 in
theorem first_factorCol : W3 m ρ c (Proc.devRef .tc main_v15) = factorCol (F := F) (m ((c : Thread nD τ).loc main_arg1)) := by
  show after hostOps0_2 (after hostOps0_1 (after hostOps0 (W0 m ρ c))) (Proc.devRef .tc main_v15) = _
  after_results
  rfl

theorem first_arg0 : W3 m ρ c (Proc.devRef .tc main_arg0) = m ((c : Thread nD τ).loc main_arg0) := by
  show after hostOps0_2 (after hostOps0_1 (after hostOps0 (W0 m ρ c))) (Proc.devRef .tc main_arg0) = _
  after_results
theorem first_arg2 : W3 m ρ c (Proc.devRef .tc main_arg2) = m ((c : Thread nD τ).loc main_arg2) := by
  show after hostOps0_2 (after hostOps0_1 (after hostOps0 (W0 m ρ c))) (Proc.devRef .tc main_arg2) = _
  after_results
theorem first_arg3 : W3 m ρ c (Proc.devRef .tc main_arg3) = m ((c : Thread nD τ).loc main_arg3) := by
  show after hostOps0_2 (after hostOps0_1 (after hostOps0 (W0 m ρ c))) (Proc.devRef .tc main_arg3) = _
  after_results
theorem first_arg4 : W3 m ρ c (Proc.devRef .tc main_arg4) = m ((c : Thread nD τ).loc main_arg4) := by
  show after hostOps0_2 (after hostOps0_1 (after hostOps0 (W0 m ρ c))) (Proc.devRef .tc main_arg4) = _
  after_results
theorem first_arg5 : W3 m ρ c (Proc.devRef .tc main_arg5) = m ((c : Thread nD τ).loc main_arg5) := by
  show after hostOps0_2 (after hostOps0_1 (after hostOps0 (W0 m ρ c))) (Proc.devRef .tc main_arg5) = _
  after_results

end First

/-! ## Between the launches, from any contents `W` -/

section Between
variable (W : Valuation τ sig (Elt F))

theorem second_agg : after hostOps1 W (Proc.devRef .tc main_v26)
    = aggregate128 (F := F) (W (Proc.devRef .tc main_v3)) (W (Proc.devRef .tc main_v6)) (W (Proc.devRef .tc main_v16)) := by
  after_results; rfl
theorem second_bias : after hostOps1 W (Proc.devRef .tc main_v27) = shapeCast _ (W (Proc.devRef .tc main_arg3)) shapeCasts_S128_S1x128 := by
  after_results; rfl
theorem second_factorCol : after hostOps1 W (Proc.devRef .tc main_v15) = W (Proc.devRef .tc main_v15) := by
  after_results
theorem second_arg4 : after hostOps1 W (Proc.devRef .tc main_arg4) = W (Proc.devRef .tc main_arg4) := by
  after_results
theorem second_arg5 : after hostOps1 W (Proc.devRef .tc main_arg5) = W (Proc.devRef .tc main_arg5) := by
  after_results
theorem second_src : after hostOps1 W (Proc.devRef .tc main_v3) = W (Proc.devRef .tc main_v3) := by
  after_results
theorem second_dst : after hostOps1 W (Proc.devRef .tc main_v6) = W (Proc.devRef .tc main_v6) := by
  after_results

theorem third_agg : after hostOps2 W (Proc.devRef .tc main_v38)
    = aggregate64 (F := F) (W (Proc.devRef .tc main_v3)) (W (Proc.devRef .tc main_v6)) (W (Proc.devRef .tc main_v28)) := by
  after_results; rfl
theorem third_bias : after hostOps2 W (Proc.devRef .tc main_v39) = shapeCast _ (W (Proc.devRef .tc main_arg5)) shapeCasts_S64_S1x64 := by
  after_results; rfl
theorem third_factorCol : after hostOps2 W (Proc.devRef .tc main_v15) = W (Proc.devRef .tc main_v15) := by
  after_results

end Between

end Cert.KernelIdeal.HostSide

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«117799_j26852135534760_2_alg».proof.Proof.LibContract
import proofs.«117799_j26852135534760_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.LibVecRows.lean ====
/-
  A vector laid along every row of a block, in a vector program's spelling.

  A vector program sends a vector v : [N] to an [n, N] block in two steps: a shape cast that adds a leading unit
  axis, [N] → [1, N], then a broadcast that copies that one row down the n rows. The shape cast keeps the row-major
  position, so (0, j) reads v j; the broadcast reads row 0 whatever the row asked for. Entry (r, j) of the result is
  therefore v j, for any extents.
-/
import Idealize.ShloMosaic.Lib.ValueIdx
import Idealize.ShloMosaic.Lib.Pipeline.Value

noncomputable section

namespace Idealize.ShloMosaic.VecRows

open Idealize.ShloMosaic Idealize.ShloMosaic.ValueIdx

variable {α : Type}

/-- A vector viewed as a one-row matrix: entry (0, j) is the vector's entry j. -/
theorem castRow_apply {N : Nat} (h : (⟨1, ![N]⟩ : Shape).ShapeCasts ⟨2, ![1, N]⟩)
    (v : (⟨1, ![N]⟩ : Shape).Idx → α) (j : Fin N) :
    shapeCast (⟨2, ![1, N]⟩ : Shape) v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- A one-row matrix copied down n rows: entry (r, j) is the row's entry j. -/
theorem spreadRow_apply {n N : Nat} (h : (⟨2, ![1, N]⟩ : Shape).Broadcasts ⟨2, ![n, N]⟩)
    (w : (⟨2, ![1, N]⟩ : Shape).Idx → α) (r : Fin n) (j : Fin N) :
    broadcastTo (⟨2, ![n, N]⟩ : Shape) w h (ix2 r j) = w (ix2 (0 : Fin 1) j) := by
  refine broadcastTo_apply w h (ix2 r j) (ix2 (0 : Fin 1) j) (fun a => ?_)
  match a with
  | ⟨0, _⟩ =>
    show 0 = if (1 : Nat) = 1 then 0 else r.val
    rw [if_pos rfl]
  | ⟨1, _⟩ =>
    show j.val = if N = 1 then 0 else j.val
    split_ifs with hN
    · have := j.isLt; omega
    · rfl

/-- The two steps together: a vector cast to one row and copied down n rows reads v j at (r, j). -/
theorem rows_apply {n N : Nat} (h1 : (⟨1, ![N]⟩ : Shape).ShapeCasts ⟨2, ![1, N]⟩)
    (h2 : (⟨2, ![1, N]⟩ : Shape).Broadcasts ⟨2, ![n, N]⟩) (v : (⟨1, ![N]⟩ : Shape).Idx → α) (r : Fin n) (j : Fin N) :
    broadcastTo (⟨2, ![n, N]⟩ : Shape) (shapeCast (⟨2, ![1, N]⟩ : Shape) v h1) h2 (ix2 r j) = v (ix1 j) :=
  (spreadRow_apply h2 _ r j).trans (castRow_apply h1 v j)

end Idealize.ShloMosaic.VecRows

end
-- ==== Proof.Bodies.lean ====
/-
  The three kernel bodies, each read at one entry of the block it stores, on the extended reals.

  Block rows are p < 5000. With x a block of node rows, w a weight matrix, d the block's column of node factors and
  b a bias row:
    the first body stores    (∑ k, x (p, k) · w (k, q)) · d (p, 0);
    the second body stores   (∑ k, max (x (p, k) · d (p, 0) + b (0, k)) 0 · w (k, q)) · d (p, 0);
    the third body stores    x (p, q) · d (p, 0) + b (0, q).
  The product into a zero accumulator is the plain sum over the shared axis; a one-column block spread across the
  columns reads its entry (p, 0); a one-row block spread down the rows reads its entry (0, q); a shape cast between
  equal shapes is the identity; the splat of the zero word is 0.
-/
import proofs.«117799_j26852135534760_2_alg».proof.Proof.Gen.KernelIdeal.Skeleton
import proofs.«117799_j26852135534760_2_alg».proof.Proof.LibDenseVec
import proofs.«117799_j26852135534760_2_alg».proof.Proof.LibColumnForms
import proofs.«117799_j26852135534760_2_alg».proof.Proof.LibVecRows
import Idealize.ShloMosaic.Lib.ValueIdx
import Idealize.ShloMosaic.Lib.Pipeline.Value
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-- The first body's product contracts the block's columns with the weight's rows. -/
theorem plain0 : DenseVec.Plain dot_S5000x128_S128x128_S5000x128_1_0_0_1_n_n where
  rank := rfl
  size := fun _ => rfl
  lhs := rfl
  rhs := rfl
  row := fun j q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  col := fun j q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The second body's product contracts the hidden columns with the second weight's rows. -/
theorem plain1 : DenseVec.Plain dot_S5000x128_S128x64_S5000x64_1_0_0_1_n_n where
  rank := rfl
  size := fun _ => rfl
  lhs := rfl
  rhs := rfl
  row := fun j q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  col := fun j q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- The first body at `(p, q)`: the dense row times the node's factor. -/
theorem body0_apply (x : Vec Ideal S5000x128 .f32) (w : Vec Ideal S128x128 .f32) (d : Vec Ideal S5000x1 .f32)
    (p : Fin 5000) (q : Fin 128) :
    k0_pay1 x w d (ix2 p q) = (∑ k : Fin 128, x (ix2 p k) * w (ix2 k q)) * d (ix2 p (0 : Fin 1)) := by
  unfold k0_pay1
  show matmul dot_S5000x128_S128x128_S5000x128_1_0_0_1_n_n (some .fp32) x w (constant (F := Ideal) S5000x128 .f32 0x00000000#32) (ix2 p q)
      * broadcastTo S5000x128 (shapeCast S5000x1 d shapeCasts_S5000x1_S5000x1) broadcasts_S5000x1_S5000x128 (ix2 p q) = _
  rw [DenseVec.matmul_zero_ix2 plain0, ColumnForms.broadcastTo_a1_ab_apply, shapeCast_self]

/-- The hidden activation of the second body at `(p, k)`. -/
def hidden (x : Vec Ideal S5000x128 .f32) (d : Vec Ideal S5000x1 .f32) (b : Vec Ideal S1x128 .f32) :
    FVec Ideal S5000x128 .f32 :=
  maximumf (addf (mulf (shapeCast S5000x128 x shapeCasts_S5000x128_S5000x128)
      (broadcastTo S5000x128 (shapeCast S5000x1 d shapeCasts_S5000x1_S5000x1) broadcasts_S5000x1_S5000x128))
      (broadcastTo S5000x128 (shapeCast S1x128 b shapeCasts_S1x128_S1x128) broadcasts_S1x128_S5000x128))
    (broadcast S5000x128 (Scalar.ofBits (F := Ideal) .f32 0x00000000#32))

theorem hidden_apply (x : Vec Ideal S5000x128 .f32) (d : Vec Ideal S5000x1 .f32) (b : Vec Ideal S1x128 .f32)
    (p : Fin 5000) (k : Fin 128) :
    hidden x d b (ix2 p k) = max (x (ix2 p k) * d (ix2 p (0 : Fin 1)) + b (ix2 (0 : Fin 1) k)) 0 := by
  unfold hidden
  show max (shapeCast S5000x128 x shapeCasts_S5000x128_S5000x128 (ix2 p k)
        * broadcastTo S5000x128 (shapeCast S5000x1 d shapeCasts_S5000x1_S5000x1) broadcasts_S5000x1_S5000x128 (ix2 p k)
      + broadcastTo S5000x128 (shapeCast S1x128 b shapeCasts_S1x128_S1x128) broadcasts_S1x128_S5000x128 (ix2 p k))
      (Ideal.ofBits .f32 0x00000000#32) = _
  rw [ColumnForms.broadcastTo_a1_ab_apply, VecRows.spreadRow_apply, shapeCast_self, shapeCast_self, shapeCast_self,
    Ideal.ofBits_zero_f32]

/-- The second body at `(p, q)`. -/
theorem body1_apply (x : Vec Ideal S5000x128 .f32) (d : Vec Ideal S5000x1 .f32) (b : Vec Ideal S1x128 .f32)
    (w : Vec Ideal S128x64 .f32) (d' : Vec Ideal S5000x1 .f32) (p : Fin 5000) (q : Fin 64) :
    k1_pay1 x d b w d' (ix2 p q)
      = (∑ k : Fin 128, max (x (ix2 p k) * d (ix2 p (0 : Fin 1)) + b (ix2 (0 : Fin 1) k)) 0 * w (ix2 k q)) * d' (ix2 p (0 : Fin 1)) := by
  unfold k1_pay1
  show matmul dot_S5000x128_S128x64_S5000x64_1_0_0_1_n_n (some .fp32) (hidden x d b) w (constant (F := Ideal) S5000x64 .f32 0x00000000#32) (ix2 p q)
      * broadcastTo S5000x64 (shapeCast S5000x1 d' shapeCasts_S5000x1_S5000x1) broadcasts_S5000x1_S5000x64 (ix2 p q) = _
  rw [DenseVec.matmul_zero_ix2 plain1, ColumnForms.broadcastTo_a1_ab_apply, shapeCast_self]
  simp only [hidden_apply]

/-- The third body at `(p, q)`. -/
theorem body2_apply (x : Vec Ideal S5000x64 .f32) (d : Vec Ideal S5000x1 .f32) (b : Vec Ideal S1x64 .f32)
    (p : Fin 5000) (q : Fin 64) :
    k2_pay1 x d b (ix2 p q) = x (ix2 p q) * d (ix2 p (0 : Fin 1)) + b (ix2 (0 : Fin 1) q) := by
  unfold k2_pay1
  show shapeCast S5000x64 x shapeCasts_S5000x64_S5000x64 (ix2 p q)
        * broadcastTo S5000x64 (shapeCast S5000x1 d shapeCasts_S5000x1_S5000x1) broadcasts_S5000x1_S5000x64 (ix2 p q)
      + broadcastTo S5000x64 (shapeCast S1x64 b shapeCasts_S1x64_S1x64) broadcasts_S1x64_S5000x64 (ix2 p q) = _
  rw [ColumnForms.broadcastTo_a1_ab_apply, VecRows.spreadRow_apply, shapeCast_self, shapeCast_self, shapeCast_self]

end Cert.KernelIdeal.Bodies

end
-- ==== Proof.FirstLaunch.lean ====
/-
  The first launch: the dense transform of the node features with each row scaled by its node's factor.

  Ten grid points; point t reads rows 5000·t … 5000·t + 4999 of the features and of the column of factors, the whole
  weight matrix, and writes the same rows of the result. So what a point writes back is its block of ONE array,

      (r, c)  ↦  (∑ k, x (r, k) · w (k, c)) · d (r, 0),

  of the arrays as the launch finds them, the ten blocks tile the 50000 rows, and the result array ends at that
  function — for any contents the launch is entered from.
-/
import proofs.«117799_j26852135534760_2_alg».proof.Proof.Gen.KernelIdeal.Frame
import proofs.«117799_j26852135534760_2_alg».proof.Proof.Bodies
import Idealize.ShloMosaic.Lib.Pipeline.Value
import Idealize.ShloMosaic.Lib.ValueIdx

set_option maxRecDepth 16384

noncomputable section

open scoped BigOperators

namespace Cert.KernelIdeal.FirstLaunch

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the features, the weights and the column of node factors. -/
def arr (x : FVec Ideal S50000x128 .f32) (w : FVec Ideal S128x128 .f32) (d : FVec Ideal S50000x1 .f32) :
    FVec Ideal S50000x128 .f32 :=
  fun i => (∑ k : Fin 128, x (ix2 (⟨(i 0).val, idx2_lt0 i⟩ : Fin 50000) k) * w (ix2 k (⟨(i 1).val, idx2_lt1 i⟩ : Fin 128)))
    * d (ix2 (⟨(i 0).val, idx2_lt0 i⟩ : Fin 50000) (0 : Fin 1))

theorem arr_ix2 (x : FVec Ideal S50000x128 .f32) (w : FVec Ideal S128x128 .f32) (d : FVec Ideal S50000x1 .f32)
    (r : Fin 50000) (c : Fin 128) :
    arr x w d (ix2 r c) = (∑ k : Fin 128, x (ix2 r k) * w (ix2 k c)) * d (ix2 r (0 : Fin 1)) := rfl

/-- The body's stored value at any entry of the block, by the entry's coordinates. -/
theorem body_at (x : Vec Ideal S5000x128 .f32) (w : Vec Ideal S128x128 .f32) (d : Vec Ideal S5000x1 .f32) (j : S5000x128.Idx) :
    k0_pay1 x w d j = (∑ k : Fin 128, x (ix2 (⟨(j 0).val, idx2_lt0 j⟩ : Fin 5000) k) * w (ix2 k (⟨(j 1).val, idx2_lt1 j⟩ : Fin 128)))
      * d (ix2 (⟨(j 0).val, idx2_lt0 j⟩ : Fin 5000) (0 : Fin 1)) := by
  obtain ⟨p, q, rfl⟩ : ∃ (p : Fin 5000) (q : Fin 128), j = ix2 p q := ⟨j 0, j 1, eq_ix2 j⟩
  exact Bodies.body0_apply x w d p q

/-- The printed index maps over the grid: the features' and the factors' blocks move with the result's rows, the
    weights' block stays, and the result's row block index is the point's number. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 9 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point `t` writes back is its block of `arr` of the arrays as the launch finds them. -/
theorem flushed_eq (c : Dev nD) (t : Fin cfg0.N) :
    (dat0 V c).flushed 3 t = ((cfg0.win 3).blk t).view.read (Elt Ideal) (arr (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  refine (body_at (iblk0 V c 0 t) (iblk0 V c 1 t) (iblk0 V c 2 t) j).trans ?_
  show _ = arr (V c main_arg0) (V c main_arg2) (V c main_v15) (((cfg0.win 3).blk t).view.emb j)
  unfold arr
  refine congrArg₂ (· * ·) (Finset.sum_congr rfl fun k _ => congrArg₂ (· * ·) ?_ ?_) ?_
  · show V c main_arg0 (((cfg0.win 0).blk t).view.emb (ix2 (⟨(j 0).val, idx2_lt0 j⟩ : Fin 5000) k)) = V c main_arg0 _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg2 (((cfg0.win 1).blk t).view.emb (ix2 k (⟨(j 1).val, idx2_lt1 j⟩ : Fin 128))) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v15 (((cfg0.win 2).blk t).view.emb (ix2 (⟨(j 0).val, idx2_lt0 j⟩ : Fin 5000) (0 : Fin 1))) = V c main_v15 _
    refine congrArg (V c main_v15) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The ten blocks cover the array: row `r` is in the block of point `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the launch. -/
theorem final (c : Dev nD) : (dat0 V c).arrAt 3 cfg0.N = arr (V c main_arg0) (V c main_arg2) (V c main_v15) :=
  (dat0 V c).arrAt_eq_of_cover 3 _ (fun t _ => flushed_eq V c t) cover

end Cert.KernelIdeal.FirstLaunch

end
-- ==== Proof.SecondLaunch.lean ====
/-
  The second launch: the first layer finished and the second dense transform, each row scaled by its node's factor.

  Ten grid points; point t reads rows 5000·t … 5000·t + 4999 of the aggregated rows and of the column of factors, the
  whole bias row and weight matrix, and writes the same rows of the result. What a point writes back is its block of
  ONE array,

      (r, c)  ↦  (∑ k, max (a (r, k) · d (r, 0) + b (0, k)) 0 · w (k, c)) · d (r, 0),

  the ten blocks tile the 50000 rows, and the result array ends at that function — for any contents the launch is
  entered from.
-/
import proofs.«117799_j26852135534760_2_alg».proof.Proof.Gen.KernelIdeal.Frame
import proofs.«117799_j26852135534760_2_alg».proof.Proof.Bodies
import Idealize.ShloMosaic.Lib.Pipeline.Value
import Idealize.ShloMosaic.Lib.ValueIdx

set_option maxRecDepth 16384

noncomputable section

open scoped BigOperators

namespace Cert.KernelIdeal.SecondLaunch

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the aggregated rows, the column of node factors, the bias row and the weights. -/
def arr (a : FVec Ideal S50000x128 .f32) (d : FVec Ideal S50000x1 .f32) (b : FVec Ideal S1x128 .f32) (w : FVec Ideal S128x64 .f32) :
    FVec Ideal S50000x64 .f32 :=
  fun i => (∑ k : Fin 128, max (a (ix2 (⟨(i 0).val, idx2_lt0 i⟩ : Fin 50000) k) * d (ix2 (⟨(i 0).val, idx2_lt0 i⟩ : Fin 50000) (0 : Fin 1))
        + b (ix2 (0 : Fin 1) k)) 0 * w (ix2 k (⟨(i 1).val, idx2_lt1 i⟩ : Fin 64)))
    * d (ix2 (⟨(i 0).val, idx2_lt0 i⟩ : Fin 50000) (0 : Fin 1))

theorem arr_ix2 (a : FVec Ideal S50000x128 .f32) (d : FVec Ideal S50000x1 .f32) (b : FVec Ideal S1x128 .f32) (w : FVec Ideal S128x64 .f32)
    (r : Fin 50000) (c : Fin 64) :
    arr a d b w (ix2 r c) = (∑ k : Fin 128, max (a (ix2 r k) * d (ix2 r (0 : Fin 1)) + b (ix2 (0 : Fin 1) k)) 0 * w (ix2 k c))
      * d (ix2 r (0 : Fin 1)) := rfl

/-- The body's stored value at any entry of the block, by the entry's coordinates. -/
theorem body_at (x : Vec Ideal S5000x128 .f32) (d : Vec Ideal S5000x1 .f32) (b : Vec Ideal S1x128 .f32) (w : Vec Ideal S128x64 .f32)
    (d' : Vec Ideal S5000x1 .f32) (j : S5000x64.Idx) :
    k1_pay1 x d b w d' j = (∑ k : Fin 128, max (x (ix2 (⟨(j 0).val, idx2_lt0 j⟩ : Fin 5000) k) * d (ix2 (⟨(j 0).val, idx2_lt0 j⟩ : Fin 5000) (0 : Fin 1))
          + b (ix2 (0 : Fin 1) k)) 0 * w (ix2 k (⟨(j 1).val, idx2_lt1 j⟩ : Fin 64)))
      * d' (ix2 (⟨(j 0).val, idx2_lt0 j⟩ : Fin 5000) (0 : Fin 1)) := by
  obtain ⟨p, q, rfl⟩ : ∃ (p : Fin 5000) (q : Fin 64), j = ix2 p q := ⟨j 0, j 1, eq_ix2 j⟩
  exact Bodies.body1_apply x d b w d' p q

/-- The printed index maps over the grid: the aggregated rows' and the factors' blocks move with the result's rows,
    the bias row's and the weights' blocks stay, and the result's row block index is at most 9. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 9 :=
  (by decide +kernel : ∀ t : Fin grid1.N, _)

/-- Every row block is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What point `t` writes back is its block of `arr` of the arrays as the launch finds them. -/
theorem flushed_eq (c : Dev nD) (t : Fin cfg1.N) :
    (dat1 V c).flushed 4 t = ((cfg1.win 4).blk t).view.read (Elt Ideal) (arr (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x64) hz]
  obtain ⟨e0, e1, e2, e3, e4, e5, e6, e7, e8, e9⟩ := idx_facts t
  funext j
  refine (body_at (iblk1 V c 0 t) (iblk1 V c 1 t) (iblk1 V c 2 t) (iblk1 V c 3 t) (iblk1 V c 1 t) j).trans ?_
  show _ = arr (V c main_v26) (V c main_v15) (V c main_v27) (V c main_arg4) (((cfg1.win 4).blk t).view.emb j)
  unfold arr
  have hd : iblk1 V c 1 t (ix2 (⟨(j 0).val, idx2_lt0 j⟩ : Fin 5000) (0 : Fin 1))
      = V c main_v15 (ix2 (⟨((((cfg1.win 4).blk t).view.emb j) 0).val, idx2_lt0 _⟩ : Fin 50000) (0 : Fin 1)) := by
    show V c main_v15 (((cfg1.win 1).blk t).view.emb (ix2 (⟨(j 0).val, idx2_lt0 j⟩ : Fin 5000) (0 : Fin 1))) = V c main_v15 _
    refine congrArg (V c main_v15) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  refine congrArg₂ (· * ·) (Finset.sum_congr rfl fun k _ => congrArg₂ (· * ·) (congrArg₂ max (congrArg₂ (· + ·) (congrArg₂ (· * ·) ?_ hd) ?_) rfl) ?_) hd
  · show V c main_v26 (((cfg1.win 0).blk t).view.emb (ix2 (⟨(j 0).val, idx2_lt0 j⟩ : Fin 5000) k)) = V c main_v26 _
    refine congrArg (V c main_v26) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v27 (((cfg1.win 2).blk t).view.emb (ix2 (0 : Fin 1) k)) = V c main_v27 _
    refine congrArg (V c main_v27) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_arg4 (((cfg1.win 3).blk t).view.emb (ix2 k (⟨(j 1).val, idx2_lt1 j⟩ : Fin 64))) = V c main_arg4 _
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega

/-- An index of the result array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v28).slice (win1_4.rect t)).set ↔ _
  rw [View.set_slice_whole, Rect.mem_set_unit]
  exact Iff.rfl

/-- The ten blocks cover the array: row `r` is in the block of point `r / 5000`. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The result array after the launch. -/
theorem final (c : Dev nD) : (dat1 V c).arrAt 4 cfg1.N = arr (V c main_v26) (V c main_v15) (V c main_v27) (V c main_arg4) :=
  (dat1 V c).arrAt_eq_of_cover 4 _ (fun t _ => flushed_eq V c t) cover

end Cert.KernelIdeal.SecondLaunch

end
-- ==== Proof.ThirdLaunch.lean ====
/-
  The third launch: the second layer finished — each aggregated row scaled by its node's factor, plus the bias row.

  Ten grid points; point t reads rows 5000·t … 5000·t + 4999 of the aggregated rows and of the column of factors, the
  whole bias row, and writes the same rows of the result. What a point writes back is its block of ONE array,

      (r, c)  ↦  a (r, c) · d (r, 0) + b (0, c),

  the ten blocks tile the 50000 rows, and the result array ends at that function — for any contents the launch is
  entered from.
-/
import proofs.«117799_j26852135534760_2_alg».proof.Proof.Gen.KernelIdeal.Frame
import proofs.«117799_j26852135534760_2_alg».proof.Proof.Bodies
import Idealize.ShloMosaic.Lib.Pipeline.Value
import Idealize.ShloMosaic.Lib.ValueIdx

set_option maxRecDepth 16384

noncomputable section

open scoped BigOperators

namespace Cert.KernelIdeal.ThirdLaunch

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the aggregated rows, the column of node factors and the bias row. -/
def arr (a : FVec Ideal S50000x64 .f32) (d : FVec Ideal S50000x1 .f32) (b : FVec Ideal S1x64 .f32) : FVec Ideal S50000x64 .f32 :=
  fun i => a (ix2 (⟨(i 0).val, idx2_lt0 i⟩ : Fin 50000) (⟨(i 1).val, idx2_lt1 i⟩ : Fin 64)) * d (ix2 (⟨(i 0).val, idx2_lt0 i⟩ : Fin 50000) (0 : Fin 1))
    + b (ix2 (0 : Fin 1) (⟨(i 1).val, idx2_lt1 i⟩ : Fin 64))

theorem arr_ix2 (a : FVec Ideal S50000x64 .f32) (d : FVec Ideal S50000x1 .f32) (b : FVec Ideal S1x64 .f32) (r : Fin 50000) (c : Fin 64) :
    arr a d b (ix2 r c) = a (ix2 r c) * d (ix2 r (0 : Fin 1)) + b (ix2 (0 : Fin 1) c) := rfl

/-- The body's stored value at any entry of the block, by the entry's coordinates. -/
theorem body_at (x : Vec Ideal S5000x64 .f32) (d : Vec Ideal S5000x1 .f32) (b : Vec Ideal S1x64 .f32) (j : S5000x64.Idx) :
    k2_pay1 x d b j = x (ix2 (⟨(j 0).val, idx2_lt0 j⟩ : Fin 5000) (⟨(j 1).val, idx2_lt1 j⟩ : Fin 64)) * d (ix2 (⟨(j 0).val, idx2_lt0 j⟩ : Fin 5000) (0 : Fin 1))
      + b (ix2 (0 : Fin 1) (⟨(j 1).val, idx2_lt1 j⟩ : Fin 64)) := by
  obtain ⟨p, q, rfl⟩ : ∃ (p : Fin 5000) (q : Fin 64), j = ix2 p q := ⟨j 0, j 1, eq_ix2 j⟩
  exact Bodies.body2_apply x d b p q

/-- The printed index maps over the grid: the aggregated rows' and the factors' blocks move with the result's rows,
    the bias row's block stays, and the result's row block index is at most 9. -/
theorem idx_facts : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 9 :=
  (by decide +kernel : ∀ t : Fin grid2.N, _)

/-- Every row block is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point `t` writes back is its block of `arr` of the arrays as the launch finds them. -/
theorem flushed_eq (c : Dev nD) (t : Fin cfg2.N) :
    (dat2 V c).flushed 3 t = ((cfg2.win 3).blk t).view.read (Elt Ideal) (arr (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e0, e1, e2, e3, e4, e5, e6, e7⟩ := idx_facts t
  funext j
  refine (body_at (iblk2 V c 0 t) (iblk2 V c 1 t) (iblk2 V c 2 t) j).trans ?_
  show _ = arr (V c main_v38) (V c main_v15) (V c main_v39) (((cfg2.win 3).blk t).view.emb j)
  unfold arr
  refine congrArg₂ (· + ·) (congrArg₂ (· * ·) ?_ ?_) ?_
  · show V c main_v38 (((cfg2.win 0).blk t).view.emb (ix2 (⟨(j 0).val, idx2_lt0 j⟩ : Fin 5000) (⟨(j 1).val, idx2_lt1 j⟩ : Fin 64))) = V c main_v38 _
    refine congrArg (V c main_v38) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  · show V c main_v15 (((cfg2.win 1).blk t).view.emb (ix2 (⟨(j 0).val, idx2_lt0 j⟩ : Fin 5000) (0 : Fin 1))) = V c main_v15 _
    refine congrArg (V c main_v15) (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  · show V c main_v39 (((cfg2.win 2).blk t).view.emb (ix2 (0 : Fin 1) (⟨(j 1).val, idx2_lt1 j⟩ : Fin 64))) = V c main_v39 _
    refine congrArg (V c main_v39) (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega

/-- An index of the result array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v40).slice (win2_3.rect t)).set ↔ _
  rw [View.set_slice_whole, Rect.mem_set_unit]
  exact Iff.rfl

/-- The ten blocks cover the array: row `r` is in the block of point `r / 5000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after the launch. -/
theorem final (c : Dev nD) : (dat2 V c).arrAt 3 cfg2.N = arr (V c main_v38) (V c main_v15) (V c main_v39) :=
  (dat2 V c).arrAt_eq_of_cover 3 _ (fun t _ => flushed_eq V c t) cover

end Cert.KernelIdeal.ThirdLaunch

end
-- ==== Proof.KernelValue.lean ====
/-
  The idealized kernel's result as one function of its arguments.

  Reading the run's last boundary back through the program: the third launch's function of the second aggregation,
  the node factors and the second bias; the second aggregation of the second launch's function of the first
  aggregation, the factors, the first bias and the second weights; the first aggregation of the first launch's
  function of the features, the first weights and the factors. Every buffer a launch or an aggregation reads that
  was written before the first launch — the edge columns, the factors — is still what it was then: a launch changes
  only its result array, a host operation only its own result.
-/
import proofs.«117799_j26852135534760_2_alg».proof.Proof.HostSide
import proofs.«117799_j26852135534760_2_alg».proof.Proof.FirstLaunch
import proofs.«117799_j26852135534760_2_alg».proof.Proof.SecondLaunch
import proofs.«117799_j26852135534760_2_alg».proof.Proof.ThirdLaunch

set_option maxRecDepth 16384

noncomputable section

namespace Cert.KernelIdeal.Whole

open Cert.KernelIdeal Cert.KernelIdeal.Gen Cert.KernelIdeal.HostSide
open Idealize.ShloMosaic Idealize.ShloMosaic.TcCoe Idealize.SL.Sem Idealize.ShloMosaic.StableHlo

/-- The result array as a function of the six arguments. -/
def value (x0 : FVec Ideal S50000x128 .f32) (x1 : IVec S2x800000 32) (w1 : FVec Ideal S128x128 .f32) (b1 : FVec Ideal S128 .f32)
    (w2 : FVec Ideal S128x64 .f32) (b2 : FVec Ideal S64 .f32) : FVec Ideal S50000x64 .f32 :=
  ThirdLaunch.arr
    (aggregate64 (F := Ideal) (endpoints0 x1) (endpoints1 x1)
      (SecondLaunch.arr
        (aggregate128 (F := Ideal) (endpoints0 x1) (endpoints1 x1) (FirstLaunch.arr x0 w1 (factorCol (F := Ideal) x1)))
        (factorCol (F := Ideal) x1) (shapeCast _ b1 shapeCasts_S128_S1x128) w2))
    (factorCol (F := Ideal) x1) (shapeCast _ b2 shapeCasts_S64_S1x64)

variable (m : (ℓ : Loc nD τ sig) → Buf (Elt Ideal) ℓ) (ρ : Dev nD → PrngReg) (c : Dev nD)

/-- The contents of the result buffer at the last boundary. -/
theorem result_eq : V8 m ρ c main_v40
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  -- at the first launch's entry
  have a0 : V3 m ρ c main_arg0 = m ((c : Thread nD τ).loc main_arg0) := first_arg0 m ρ c
  have a2 : V3 m ρ c main_arg2 = m ((c : Thread nD τ).loc main_arg2) := first_arg2 m ρ c
  have ad : V3 m ρ c main_v15 = factorCol (F := Ideal) (m ((c : Thread nD τ).loc main_arg1)) := first_factorCol m ρ c
  -- at the first launch's exit
  have b16 : W4 m ρ c (Proc.devRef .tc main_v16)
      = FirstLaunch.arr (m ((c : Thread nD τ).loc main_arg0)) (m ((c : Thread nD τ).loc main_arg2)) (factorCol (F := Ideal) (m ((c : Thread nD τ).loc main_arg1))) := by
    refine (W4_arr m ρ c 3).trans ((FirstLaunch.final (V3 m ρ) c).trans ?_)
    rw [a0, a2, ad]
  have b3 : W4 m ρ c (Proc.devRef .tc main_v3) = endpoints0 (m ((c : Thread nD τ).loc main_arg1)) :=
    (W4_of_ne m ρ c main_v3 (by decide)).trans (first_src m ρ c)
  have b6 : W4 m ρ c (Proc.devRef .tc main_v6) = endpoints1 (m ((c : Thread nD τ).loc main_arg1)) :=
    (W4_of_ne m ρ c main_v6 (by decide)).trans (first_dst m ρ c)
  have bd : W4 m ρ c (Proc.devRef .tc main_v15) = factorCol (F := Ideal) (m ((c : Thread nD τ).loc main_arg1)) :=
    (W4_arr m ρ c 2).trans ((((dat0 (V3 m ρ) c).arrAt_in 2 rfl _).trans (A_eq0 (V3 m ρ) c 2)).trans (first_factorCol m ρ c))
  have b_3 : W4 m ρ c (Proc.devRef .tc main_arg3) = m ((c : Thread nD τ).loc main_arg3) :=
    (W4_of_ne m ρ c main_arg3 (by decide)).trans (first_arg3 m ρ c)
  have b_4 : W4 m ρ c (Proc.devRef .tc main_arg4) = m ((c : Thread nD τ).loc main_arg4) :=
    (W4_of_ne m ρ c main_arg4 (by decide)).trans (first_arg4 m ρ c)
  have b_5 : W4 m ρ c (Proc.devRef .tc main_arg5) = m ((c : Thread nD τ).loc main_arg5) :=
    (W4_of_ne m ρ c main_arg5 (by decide)).trans (first_arg5 m ρ c)
  -- at the second launch's entry
  have c26 : V5 m ρ c main_v26 = aggregate128 (F := Ideal) (endpoints0 (m ((c : Thread nD τ).loc main_arg1))) (endpoints1 (m ((c : Thread nD τ).loc main_arg1)))
      (FirstLaunch.arr (m ((c : Thread nD τ).loc main_arg0)) (m ((c : Thread nD τ).loc main_arg2)) (factorCol (F := Ideal) (m ((c : Thread nD τ).loc main_arg1)))) := by
    refine (second_agg (W4 m ρ c)).trans ?_
    rw [b3, b6, b16]
  have c27 : V5 m ρ c main_v27 = shapeCast _ (m ((c : Thread nD τ).loc main_arg3)) shapeCasts_S128_S1x128 := by
    refine (second_bias (W4 m ρ c)).trans ?_
    rw [b_3]
  have cd : V5 m ρ c main_v15 = factorCol (F := Ideal) (m ((c : Thread nD τ).loc main_arg1)) := (second_factorCol (W4 m ρ c)).trans bd
  have c_4 : V5 m ρ c main_arg4 = m ((c : Thread nD τ).loc main_arg4) := (second_arg4 (W4 m ρ c)).trans b_4
  have c_5 : W5 m ρ c (Proc.devRef .tc main_arg5) = m ((c : Thread nD τ).loc main_arg5) := (second_arg5 (W4 m ρ c)).trans b_5
  have c3 : W5 m ρ c (Proc.devRef .tc main_v3) = endpoints0 (m ((c : Thread nD τ).loc main_arg1)) := (second_src (W4 m ρ c)).trans b3
  have c6 : W5 m ρ c (Proc.devRef .tc main_v6) = endpoints1 (m ((c : Thread nD τ).loc main_arg1)) := (second_dst (W4 m ρ c)).trans b6
  -- at the second launch's exit
  have d28 : W6 m ρ c (Proc.devRef .tc main_v28)
      = SecondLaunch.arr (V5 m ρ c main_v26) (V5 m ρ c main_v15) (V5 m ρ c main_v27) (V5 m ρ c main_arg4) :=
    (W6_arr m ρ c 4).trans (SecondLaunch.final (V5 m ρ) c)
  have d3 : W6 m ρ c (Proc.devRef .tc main_v3) = endpoints0 (m ((c : Thread nD τ).loc main_arg1)) :=
    (W6_of_ne m ρ c main_v3 (by decide)).trans c3
  have d6 : W6 m ρ c (Proc.devRef .tc main_v6) = endpoints1 (m ((c : Thread nD τ).loc main_arg1)) :=
    (W6_of_ne m ρ c main_v6 (by decide)).trans c6
  have dd : W6 m ρ c (Proc.devRef .tc main_v15) = factorCol (F := Ideal) (m ((c : Thread nD τ).loc main_arg1)) :=
    (W6_arr m ρ c 1).trans ((((dat1 (V5 m ρ) c).arrAt_in 1 rfl _).trans (A_eq1 (V5 m ρ) c 1)).trans cd)
  have d_5 : W6 m ρ c (Proc.devRef .tc main_arg5) = m ((c : Thread nD τ).loc main_arg5) :=
    (W6_of_ne m ρ c main_arg5 (by decide)).trans c_5
  -- at the third launch's entry
  have e38 : V7 m ρ c main_v38 = aggregate64 (F := Ideal) (endpoints0 (m ((c : Thread nD τ).loc main_arg1))) (endpoints1 (m ((c : Thread nD τ).loc main_arg1)))
      (SecondLaunch.arr (V5 m ρ c main_v26) (V5 m ρ c main_v15) (V5 m ρ c main_v27) (V5 m ρ c main_arg4)) := by
    refine (third_agg (W6 m ρ c)).trans ?_
    rw [d3, d6, d28]
  have e39 : V7 m ρ c main_v39 = shapeCast _ (m ((c : Thread nD τ).loc main_arg5)) shapeCasts_S64_S1x64 := by
    refine (third_bias (W6 m ρ c)).trans ?_
    rw [d_5]
  have ed : V7 m ρ c main_v15 = factorCol (F := Ideal) (m ((c : Thread nD τ).loc main_arg1)) := (third_factorCol (W6 m ρ c)).trans dd
  -- the third launch's result
  refine (W8_arr m ρ c 3).trans ((ThirdLaunch.final (V7 m ρ) c).trans ?_)
  rw [e38, e39, ed, c26, c27, cd, c_4]
  rfl

end Cert.KernelIdeal.Whole

end
-- ==== Proof.ScaledAggregation.lean ====
/-
  The algebra of a two-layer graph convolution with symmetric normalisation, on the extended reals.

  Of the graph the two programs read: a factor D r in [0, ∞) per node r (the inverse square root of the node's degree,
  or 0); for each edge e the node s e whose row a gather reads, the node t e at which the reference reads its second
  factor, and the row l e (an integer, possibly outside the array) the edge's update lands in; when l e is the node r,
  t e = r. One layer sends h (a value per node, for one fixed column) to

      pre-scaled form :  (0 + ∑ e, [l e = r] · (h (s e) · D (s e))) · D r
      per-edge form   :   0 + ∑ e, [l e = r] · (h (s e) · (D (s e) · D (t e)))

  and the two agree: a factor in [0, ∞) moves out of a finite sum on the extended reals (no finiteness of h is
  needed: for 0 ≤ c < ⊤ the map x ↦ x · c is additive on all of [-∞, ∞]), and inside the sum the products
  re-associate, t e being r. The whole network (dense layer, aggregation, bias, rectifier, dense layer, aggregation,
  bias) is then the same function in both forms.
-/
import Mathlib.Data.EReal.Inv
import Mathlib.Algebra.BigOperators.Fin

noncomputable section

open scoped BigOperators

namespace Cert.ScaledAggregation

/-- A factor in `[0, ∞)` moves out of a finite sum of extended reals. -/
theorem sum_mul_of_nonneg_of_ne_top {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

variable {N E : ℕ}

/-- The aggregation of pre-scaled rows, scaled again at the destination. -/
def aggPre (D : Fin N → EReal) (s : Fin E → Fin N) (l : Fin E → ℤ) (h : Fin N → EReal) (r : Fin N) : EReal :=
  (0 + ∑ e : Fin E, if l e = (r.val : ℤ) then h (s e) * D (s e) else 0) * D r

/-- The aggregation of rows each scaled by its edge's product of factors. -/
def aggEdge (D : Fin N → EReal) (s t : Fin E → Fin N) (l : Fin E → ℤ) (h : Fin N → EReal) (r : Fin N) : EReal :=
  0 + ∑ e : Fin E, if l e = (r.val : ℤ) then h (s e) * (D (s e) * D (t e)) else 0

/-- One layer: the pre-scaled form is the per-edge form. -/
theorem aggPre_eq_aggEdge (D : Fin N → EReal) (s t : Fin E → Fin N) (l : Fin E → ℤ)
    (hD0 : ∀ r, 0 ≤ D r) (hDt : ∀ r, D r ≠ ⊤) (ht : ∀ e (r : Fin N), l e = (r.val : ℤ) → t e = r)
    (h : Fin N → EReal) (r : Fin N) : aggPre D s l h r = aggEdge D s t l h r := by
  unfold aggPre aggEdge
  rw [zero_add, zero_add, sum_mul_of_nonneg_of_ne_top _ _ (hD0 r) (hDt r)]
  refine Finset.sum_congr rfl fun e _ => ?_
  by_cases hl : l e = (r.val : ℤ)
  · rw [if_pos hl, if_pos hl, ht e r hl, mul_assoc]
  · rw [if_neg hl, if_neg hl, zero_mul]

variable {A H O : ℕ}

/-- The network with the factors applied per node, before and after each aggregation. -/
def netPre (D : Fin N → EReal) (s : Fin E → Fin N) (l : Fin E → ℤ)
    (x : Fin N → Fin A → EReal) (w1 : Fin A → Fin H → EReal) (b1 : Fin H → EReal)
    (w2 : Fin H → Fin O → EReal) (b2 : Fin O → EReal) (r : Fin N) (c : Fin O) : EReal :=
  aggPre D s l (fun i => ∑ k : Fin H,
    max (aggPre D s l (fun i' => ∑ a : Fin A, x i' a * w1 a k) i + b1 k) 0 * w2 k c) r + b2 c

/-- The network with the factors applied per edge. -/
def netEdge (D : Fin N → EReal) (s t : Fin E → Fin N) (l : Fin E → ℤ)
    (x : Fin N → Fin A → EReal) (w1 : Fin A → Fin H → EReal) (b1 : Fin H → EReal)
    (w2 : Fin H → Fin O → EReal) (b2 : Fin O → EReal) (r : Fin N) (c : Fin O) : EReal :=
  aggEdge D s t l (fun i => ∑ k : Fin H,
    max (aggEdge D s t l (fun i' => ∑ a : Fin A, x i' a * w1 a k) i + b1 k) 0 * w2 k c) r + b2 c

/-- The two networks are one function. -/
theorem netPre_eq_netEdge (D : Fin N → EReal) (s t : Fin E → Fin N) (l : Fin E → ℤ)
    (hD0 : ∀ r, 0 ≤ D r) (hDt : ∀ r, D r ≠ ⊤) (ht : ∀ e (r : Fin N), l e = (r.val : ℤ) → t e = r)
    (x : Fin N → Fin A → EReal) (w1 : Fin A → Fin H → EReal) (b1 : Fin H → EReal)
    (w2 : Fin H → Fin O → EReal) (b2 : Fin O → EReal) (r : Fin N) (c : Fin O) :
    netPre D s l x w1 b1 w2 b2 r c = netEdge D s t l x w1 b1 w2 b2 r c := by
  unfold netPre netEdge
  rw [aggPre_eq_aggEdge D s t l hD0 hDt ht]
  simp only [aggPre_eq_aggEdge D s t l hD0 hDt ht]

end Cert.ScaledAggregation

end
-- ==== Proof.LibRowScatter.lean ====
/-
  A scatter-add and a gather of whole rows, read at an entry.

  A gather of whole rows reads, for result row e, the operand row that the start index J e names — read signed and
  clamped into the operand's row range —, and that row does not depend on how wide the rows are. An accumulating
  scatter of whole rows leaves at entry (r, c) the operand's entry plus the sum, over the update rows e whose scatter
  index I e is r, of the updates' entries (e, c): an update entry (e, c') lands at (I e, c'), inside the array exactly
  when 0 ≤ I e < R, so the entries landing at (r, c) are the (e, c) with I e = r. Both readings are for any extents
  R, C, E and any dimension record of the row shape (operand [R, C], indices [E, 1] with the index vector on axis 1
  naming operand axis 0, updates or result [E, C]); jax's segment_sum and x[idx] lower to exactly these records.
-/
import Idealize.ShloMosaic.Lib.ValueIdx
import Idealize.ShloMosaic.Lib.Pipeline.Value
import Idealize.ShloMosaic.PureOps.Ideal

noncomputable section

open scoped BigOperators

namespace Idealize.ShloMosaic.RowScatter

open Idealize.ShloMosaic Idealize.ShloMosaic.ValueIdx

section Scatter
variable {R C E w : Nat}

/-- The dimension numbers of a scatter of whole rows: an operand `[R, C]`, one scatter index per update row (indices
    `[E, 1]`, the index vector on axis 1, naming operand axis 0), updates `[E, C]` whose axis 1 is the window. -/
abbrev rowScatter (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- On the row axis an update entry starts at its row's scatter index, read signed. -/
theorem rowScatter_start0 (wf : ScatterDims.WF ⟨2, ![R, C]⟩ ⟨2, ![E, 1]⟩ ⟨2, ![E, C]⟩ [1] [0] [0] 1)
    (j : (⟨2, ![E, C]⟩ : Shape).Idx) (I : IVec ⟨2, ![E, 1]⟩ w) :
    (rowScatter R C E wf).start j I 0 = (I (ix2 (j 0) 0)).toInt := by
  unfold ScatterDims.start
  rw [dif_pos (show (0 : Fin 2) ∈ (rowScatter R C E wf).scatterDimsToOperandDims from List.mem_singleton.mpr rfl)]
  have hsi : (rowScatter R C E wf).siIdx j ⟨List.idxOf (0 : Fin 2) (rowScatter R C E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis every update entry starts at 0. -/
theorem rowScatter_start1 (wf : ScatterDims.WF ⟨2, ![R, C]⟩ ⟨2, ![E, 1]⟩ ⟨2, ![E, C]⟩ [1] [0] [0] 1)
    (j : (⟨2, ![E, C]⟩ : Shape).Idx) (I : IVec ⟨2, ![E, 1]⟩ w) :
    (rowScatter R C E wf).start j I 1 = 0 := by
  unfold ScatterDims.start
  rw [dif_neg (show ¬ (1 : Fin 2) ∈ (rowScatter R C E wf).scatterDimsToOperandDims from fun h => Nat.one_ne_zero (congrArg Fin.val (List.mem_singleton.mp h)))]

/-- The row axis is inserted: no window coordinate there. -/
theorem rowScatter_window0 (wf : ScatterDims.WF ⟨2, ![R, C]⟩ ⟨2, ![E, 1]⟩ ⟨2, ![E, C]⟩ [1] [0] [0] 1)
    (j : (⟨2, ![E, C]⟩ : Shape).Idx) :
    (rowScatter R C E wf).window j 0 = 0 := by
  unfold ScatterDims.window
  rw [dif_neg (show ¬ (0 : Fin 2) ∈ (rowScatter R C E wf).sKept by simp [ScatterDims.sKept, Shape.kept, List.mem_filter])]

/-- On the column axis the window coordinate is the update entry's column. -/
theorem rowScatter_window1 (wf : ScatterDims.WF ⟨2, ![R, C]⟩ ⟨2, ![E, 1]⟩ ⟨2, ![E, C]⟩ [1] [0] [0] 1)
    (j : (⟨2, ![E, C]⟩ : Shape).Idx) :
    (rowScatter R C E wf).window j 1 = (j 1).val := by
  unfold ScatterDims.window
  rw [dif_pos (show (1 : Fin 2) ∈ (rowScatter R C E wf).sKept by simp [ScatterDims.sKept, Shape.kept, List.mem_filter, List.mem_finRange])]
  rfl

/-- Update entry `j = (e, c')` lands at `i = (r, c)` exactly when its row's scatter index is `r` and `c' = c`. -/
theorem rowScatter_resultIdx?_eq_some (wf : ScatterDims.WF ⟨2, ![R, C]⟩ ⟨2, ![E, 1]⟩ ⟨2, ![E, C]⟩ [1] [0] [0] 1)
    (j : (⟨2, ![E, C]⟩ : Shape).Idx) (I : IVec ⟨2, ![E, 1]⟩ w) (i : (⟨2, ![R, C]⟩ : Shape).Idx) :
    (rowScatter R C E wf).resultIdx? j I = some i ↔
      (I (ix2 (j 0) 0)).toInt = ((i 0).val : ℤ) ∧ (j 1).val = (i 1).val := by
  have h0 := rowScatter_start0 wf j I
  have h1 := rowScatter_start1 wf j I
  have w0 := rowScatter_window0 wf j
  have w1 := rowScatter_window1 wf j
  have hi0 := idx2_lt0 i
  have hi1 := idx2_lt1 i
  have hj1 := idx2_lt1 j
  unfold ScatterDims.resultIdx?
  split
  · next h =>
    rw [Option.some.injEq]
    constructor
    · intro e
      have e0 : ((rowScatter R C E wf).start j I 0 + ((rowScatter R C E wf).window j 0 : ℕ)).toNat = (i 0).val :=
        congrArg (fun f => (f 0).val) e
      have e1 : ((rowScatter R C E wf).start j I 1 + ((rowScatter R C E wf).window j 1 : ℕ)).toNat = (i 1).val :=
        congrArg (fun f => (f 1).val) e
      have p0 := (h 0).1
      rw [h0, w0] at e0 p0
      rw [h1, w1] at e1
      constructor <;> omega
    · rintro ⟨e0, e1⟩
      funext a
      refine Fin.ext ?_
      match a with
      | ⟨0, _⟩ =>
        show ((rowScatter R C E wf).start j I 0 + ((rowScatter R C E wf).window j 0 : ℕ)).toNat = (i 0).val
        rw [h0, w0]; omega
      | ⟨1, _⟩ =>
        show ((rowScatter R C E wf).start j I 1 + ((rowScatter R C E wf).window j 1 : ℕ)).toNat = (i 1).val
        rw [h1, w1]; omega
  · next h =>
    constructor
    · intro e; exact absurd e (by simp)
    · rintro ⟨e0, e1⟩
      exfalso; apply h
      intro a
      match a with
      | ⟨0, _⟩ =>
        show 0 ≤ (rowScatter R C E wf).start j I 0 + ((rowScatter R C E wf).window j 0 : ℕ) ∧
          (rowScatter R C E wf).start j I 0 + ((rowScatter R C E wf).window j 0 : ℕ) < (R : ℤ)
        rw [h0, w0]; constructor <;> omega
      | ⟨1, _⟩ =>
        show 0 ≤ (rowScatter R C E wf).start j I 1 + ((rowScatter R C E wf).window j 1 : ℕ) ∧
          (rowScatter R C E wf).start j I 1 + ((rowScatter R C E wf).window j 1 : ℕ) < (C : ℤ)
        rw [h1, w1]; constructor <;> omega

/-- The accumulating scatter of rows, read at entry `(r, c)`: the operand's entry plus the sum, over the update rows
    whose scatter index is `r`, of their entries in column `c`. -/
theorem hostScatterAdd_rowScatter (wf : ScatterDims.WF ⟨2, ![R, C]⟩ ⟨2, ![E, 1]⟩ ⟨2, ![E, C]⟩ [1] [0] [0] 1)
    (x : (⟨2, ![R, C]⟩ : Shape).Idx → EReal) (I : IVec ⟨2, ![E, 1]⟩ w)
    (upd : (⟨2, ![E, C]⟩ : Shape).Idx → EReal) (r : Fin R) (c : Fin C) :
    Ideal.hostScatterAdd (rowScatter R C E wf) x I upd (ix2 r c) =
      x (ix2 r c) + ∑ e : Fin E, if (I (ix2 e 0)).toInt = (r.val : ℤ) then upd (ix2 e c) else 0 := by
  have hf : (Finset.univ.filter fun j => (rowScatter R C E wf).resultIdx? j I = some (ix2 r c)) =
      Finset.univ.filter (fun j : (⟨2, ![E, C]⟩ : Shape).Idx => (I (ix2 (j 0) 0)).toInt = (r.val : ℤ) ∧ (j 1).val = c.val) := by
    ext j
    simp only [Finset.mem_filter, Finset.mem_univ, true_and]
    exact rowScatter_resultIdx?_eq_some wf j I (ix2 r c)
  unfold Ideal.hostScatterAdd
  rw [hf, Finset.sum_filter, sum_idx2]
  congr 1
  refine Finset.sum_congr rfl fun e _ => ?_
  show ∑ b : Fin C, (if (I (ix2 e 0)).toInt = (r.val : ℤ) ∧ b.val = c.val then upd (ix2 e b) else 0) = _
  by_cases h : (I (ix2 e 0)).toInt = (r.val : ℤ)
  · rw [if_pos h, Finset.sum_eq_single c]
    · rw [if_pos ⟨h, rfl⟩]
    · intro b _ hb; rw [if_neg (fun hh => hb (Fin.ext hh.2))]
    · intro hc; exact absurd (Finset.mem_univ c) hc
  · rw [if_neg h]
    refine Finset.sum_eq_zero fun b _ => ?_
    rw [if_neg (fun hh => h hh.1)]

end Scatter

section Gather
variable {R C E w : Nat} {α : Type}

/-- The dimension numbers of a gather of whole rows: an operand `[R, C]`, one start index per result row (indices
    `[E, 1]`, naming operand axis 0, which is collapsed), slices `[1, C]`, result `[E, C]`. -/
abbrev rowGather (R C E : Nat) (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand row a gather of whole rows reads for result row `e`: the start index read signed and clamped into
    `[0, R − 1]`. It does not depend on the width of the rows. -/
def gRow (R : Nat) (hR : 0 < R) (J : IVec ⟨2, ![E, 1]⟩ w) (e : Fin E) : Fin R :=
  ⟨min (J (ix2 e 0)).toInt.toNat (R - 1), by omega⟩

/-- The gather of whole rows read at `(e, c)`: the operand at row `gRow … e`, column `c`. -/
theorem gather_rowGather (hR : 0 < R) (wf : GatherDims.WF ⟨2, ![R, C]⟩ ⟨2, ![E, 1]⟩ ⟨2, ![E, C]⟩ [1] [0] [] [0] [] 1 ![1, C])
    (x : (⟨2, ![R, C]⟩ : Shape).Idx → α) (J : IVec ⟨2, ![E, 1]⟩ w) (e : Fin E) (c : Fin C) :
    Host.gather (rowGather R C E wf) x J (ix2 e c) = x (ix2 (gRow R hR J e) c) := by
  unfold Host.gather
  congr 1
  funext a
  refine Fin.ext ?_
  match a with
  | ⟨0, _⟩ =>
    show (rowGather R C E wf).start (ix2 e c) J 0 + (rowGather R C E wf).batchCoord (ix2 e c) 0 +
      (rowGather R C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C E wf).startIndexMap from List.mem_singleton.mpr rfl)]
    have hsi : (rowGather R C E wf).siIdx (ix2 e c) ⟨List.idxOf (0 : Fin 2) (rowGather R C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather R C E wf).start (ix2 e c) J 1 + (rowGather R C E wf).batchCoord (ix2 e c) 1 +
      (rowGather R C E wf).offCoord (ix2 e c) 1 = c.val
    rw [GatherDims.batchCoord_eq_zero _ _ _ List.not_mem_nil]
    unfold GatherDims.start
    rw [dif_neg (show ¬ (1 : Fin 2) ∈ (rowGather R C E wf).startIndexMap from
      fun h => Nat.one_ne_zero (congrArg Fin.val (List.mem_singleton.mp h)))]
    unfold GatherDims.offCoord
    rw [dif_pos (show (1 : Fin 2) ∈ (rowGather R C E wf).sKept by
      simp [GatherDims.sKept, Shape.kept, List.mem_filter, List.mem_finRange])]
    simp only [Nat.zero_add, Nat.add_zero]
    rfl

end Gather

section Bridge
variable {R C E w : Nat} {φ : FTy}

/-- The host's accumulating scatter of rows at the ideal instance, read at entry `(r, c)`. -/
theorem scatterAdd_rowScatter (wf : ScatterDims.WF ⟨2, ![R, C]⟩ ⟨2, ![E, 1]⟩ ⟨2, ![E, C]⟩ [1] [0] [0] 1)
    (x : FVec Ideal ⟨2, ![R, C]⟩ φ) (I : IVec ⟨2, ![E, 1]⟩ w) (upd : FVec Ideal ⟨2, ![E, C]⟩ φ) (r : Fin R) (c : Fin C) :
    Host.scatterAdd (rowScatter R C E wf) x I upd (ix2 r c) =
      x (ix2 r c) + ∑ e : Fin E, if (I (ix2 e 0)).toInt = (r.val : ℤ) then upd (ix2 e c) else 0 :=
  hostScatterAdd_rowScatter wf x I upd r c

end Bridge

end Idealize.ShloMosaic.RowScatter

end
-- ==== Proof.LibVecGather.lean ====
/-
  Single entries of a vector gathered by a column of indices.

  A gather of single entries reads, for result entry e, the operand entry that the start index J e names — read signed
  and clamped into the operand's range: the same entry number as the row a gather of whole rows reads for the same
  index column (RowScatter.gRow). The statement is for any extents R, E and any dimension record of the shape
  (operand [R], indices [E, 1] with the index vector on axis 1 naming operand axis 0, result [E], slices of one entry;
  jax's v[idx] on a vector lowers to exactly this record).
-/
import Idealize.ShloMosaic.Lib.ValueIdx
import Idealize.ShloMosaic.Lib.Pipeline.Value
import proofs.«117799_j26852135534760_2_alg».proof.Proof.LibRowScatter

noncomputable section

namespace Idealize.ShloMosaic.VecGather

open Idealize.ShloMosaic Idealize.ShloMosaic.ValueIdx

variable {R E w : Nat} {α : Type}

/-- The dimension numbers of a gather of single entries of a vector: an operand `[R]`, one start index per result entry
    (indices `[E, 1]`, naming operand axis 0, which is collapsed), slices of one entry, result `[E]`. -/
abbrev vecGather (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of single entries read at `e`: the operand at entry `gRow … e`. -/
theorem gather_vecGather (hR : 0 < R) (wf : GatherDims.WF ⟨1, ![R]⟩ ⟨2, ![E, 1]⟩ ⟨1, ![E]⟩ [] [0] [] [0] [] 1 ![1])
    (x : (⟨1, ![R]⟩ : Shape).Idx → α) (J : IVec ⟨2, ![E, 1]⟩ w) (e : Fin E) :
    Host.gather (vecGather R E wf) x J (ix1 e) = x (ix1 (RowScatter.gRow R hR J e)) := by
  unfold Host.gather
  congr 1
  funext a
  refine Fin.ext ?_
  match a with
  | ⟨0, _⟩ =>
    show (vecGather R E wf).start (ix1 e) J 0 + (vecGather R E wf).batchCoord (ix1 e) 0 +
      (vecGather R E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather R E wf).startIndexMap from List.mem_singleton.mpr rfl)]
    have hsi : (vecGather R E wf).siIdx (ix1 e) ⟨List.idxOf (0 : Fin 1) (vecGather R E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Idealize.ShloMosaic.VecGather

end
-- ==== Proof.EdgeFacts.lean ====
/-
  Three facts about what the programs read of the graph.

  The node factor — the inverse square root of the degree where the degree is positive, else 0 — lies in [0, ∞)
  whatever extended real the degree is: at ⊤ the inverse square root is 0, at a positive real it is a positive real,
  and everywhere else the factor is the constant 0.

  An index word that reads, signed, as a node's number r is not negative, so wrapping negative indices by the node
  count leaves it alone, and clamping it into the node range gives r: the row a gather reads for it is r.

  An array filled with the zero word reads 0 at every entry.
-/
import Idealize.ShloMosaic.PureOps.Ideal
import Idealize.ShloMosaic.PureOps.Ideal.Laws
import Idealize.ShloMosaic.Lib.ValueIdx
import proofs.«117799_j26852135534760_2_alg».proof.Proof.LibRowScatter

noncomputable section

namespace Cert.EdgeFacts

open Idealize.ShloMosaic Idealize.ShloMosaic.ValueIdx

/-- A word sent to every entry of an array reads, on the extended reals, the number the word denotes. -/
theorem splat_apply {s : Shape} {φ : FTy} (h : (⟨0, ![]⟩ : Shape).BroadcastsInDim s ![]) (b : BitVec φ.bits) (i : s.Idx) :
    broadcastInDim s ![] h (constant (F := Ideal) (⟨0, ![]⟩ : Shape) φ b) i = Ideal.ofBits φ b := rfl

/-- The zero word sent to every entry of an array reads 0 everywhere. -/
theorem zero_splat_apply {s : Shape} (h : (⟨0, ![]⟩ : Shape).BroadcastsInDim s ![]) (i : s.Idx) :
    broadcastInDim s ![] h (constant (F := Ideal) (⟨0, ![]⟩ : Shape) .f32 0x00000000#32) i = 0 :=
  (splat_apply (φ := .f32) h 0x00000000#32 i).trans Ideal.ofBits_zero_f32

/-- The node factor is in `[0, ∞)`. -/
theorem factor_range (d : EReal) :
    0 ≤ Scalar.select (Ideal.cmp .ogt d 0) (Ideal.rsqrt d) 0 ∧ Scalar.select (Ideal.cmp .ogt d 0) (Ideal.rsqrt d) 0 ≠ ⊤ := by
  show 0 ≤ (if BitVec.ofBool (decide ((0 : EReal) < d)) = 1#1 then Ideal.rsqrt d else 0)
    ∧ (if BitVec.ofBool (decide ((0 : EReal) < d)) = 1#1 then Ideal.rsqrt d else 0) ≠ ⊤
  by_cases h : (0 : EReal) < d
  · rw [if_pos (by rw [decide_eq_true h]; rfl)]
    induction d using EReal.rec with
    | bot => exact absurd h (by simp)
    | top => rw [Ideal.rsqrt_top]; exact ⟨le_rfl, EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · rw [if_neg (by rw [decide_eq_false h]; decide)]
    exact ⟨le_rfl, EReal.zero_ne_top⟩

/-- An index word that is not negative is left alone by the wrap of negative indices. -/
theorem wrap_of_nonneg (b : BitVec 32) (h : 0 ≤ b.toInt) :
    Scalar.select (IntOp.cmpi .slt b 0#32) (IntOp.addi b 50000#32) b = b := by
  have hs : b.slt 0#32 = false := by
    show decide (b.toInt < (0#32 : BitVec 32).toInt) = false
    rw [BitVec.toInt_zero]
    exact decide_eq_false (by omega)
  show (if BitVec.ofBool (b.slt 0#32) = 1#1 then IntOp.addi b 50000#32 else b) = b
  rw [hs, if_neg (by decide)]

/-- The row a gather reads for an index word that reads, signed, as the row number `r`, is `r`. -/
theorem gRow_of_toInt {R E w : Nat} (hR : 0 < R) (J : IVec ⟨2, ![E, 1]⟩ w) (e : Fin E) (r : Fin R)
    (h : (J (ix2 e 0)).toInt = (r.val : ℤ)) : RowScatter.gRow R hR J e = r := by
  refine Fin.ext ?_
  show min (J (ix2 e 0)).toInt.toNat (R - 1) = r.val
  rw [h, Int.toNat_natCast]
  have := r.isLt
  omega

end Cert.EdgeFacts

end
-- ==== Proof.KernelNet.lean ====
/-
  The idealized kernel's result read at an entry: the network with the node factors applied per node.

  From the kernel's own host terms: the factor of node r is the factor vector's entry r; the source row of edge e is
  the row its gather reads (the wrapped source index, read signed, clamped into the node range); the row edge e lands
  in is its destination index read signed. An aggregation read at (r, c) is 0 plus the sum, over the edges landing in
  r, of the gathered row's entry c; each launch's function is its formula at (r, c). Put together, entry (r, c) of the
  result is the network in its pre-scaled form.
-/
import proofs.«117799_j26852135534760_2_alg».proof.Proof.KernelValue
import proofs.«117799_j26852135534760_2_alg».proof.Proof.ScaledAggregation
import proofs.«117799_j26852135534760_2_alg».proof.Proof.LibRowScatter
import proofs.«117799_j26852135534760_2_alg».proof.Proof.LibVecGather
import proofs.«117799_j26852135534760_2_alg».proof.Proof.LibColumnForms
import proofs.«117799_j26852135534760_2_alg».proof.Proof.LibVecRows
import proofs.«117799_j26852135534760_2_alg».proof.Proof.EdgeFacts
import Idealize.ShloMosaic.PureOps.Ideal.Laws

set_option maxRecDepth 16384

noncomputable section

open scoped BigOperators

namespace Cert.KernelIdeal.Whole

open Cert.KernelIdeal Cert.KernelIdeal.Gen Cert.KernelIdeal.HostSide Cert.ScaledAggregation
open Idealize.ShloMosaic Idealize.ShloMosaic.TcCoe Idealize.ShloMosaic.ValueIdx

/-- Node `r`'s factor. -/
def D (x1 : IVec S2x800000 32) (r : Fin 50000) : EReal := factor (F := Ideal) x1 (ix1 r)

/-- The row the gathers read for edge `e`. -/
def s (x1 : IVec S2x800000 32) (e : Fin 850000) : Fin 50000 :=
  RowScatter.gRow 50000 (by decide) (asColumn (wrapped (endpoints0 x1))) e

/-- The row edge `e`'s update lands in, as an integer. -/
def l (x1 : IVec S2x800000 32) (e : Fin 850000) : ℤ := (asColumn (endpoints1 x1) (ix2 e (0 : Fin 1))).toInt

theorem factorCol_apply (x1 : IVec S2x800000 32) (r : Fin 50000) : factorCol (F := Ideal) x1 (ix2 r (0 : Fin 1)) = D x1 r :=
  ColumnForms.shapeCast_a_a1_apply (factor (F := Ideal) x1) shapeCasts_S50000_S50000x1 r

theorem bias1_apply (b1 : FVec Ideal S128 .f32) (k : Fin 128) :
    shapeCast S1x128 b1 shapeCasts_S128_S1x128 (ix2 (0 : Fin 1) k) = b1 (ix1 k) :=
  VecRows.castRow_apply shapeCasts_S128_S1x128 b1 k

theorem bias2_apply (b2 : FVec Ideal S64 .f32) (k : Fin 64) :
    shapeCast S1x64 b2 shapeCasts_S64_S1x64 (ix2 (0 : Fin 1) k) = b2 (ix1 k) :=
  VecRows.castRow_apply shapeCasts_S64_S1x64 b2 k

/-- The aggregation of 128-wide rows at `(r, k)`. -/
theorem agg128_apply (src dst : IVec S850000 32) (y : FVec Ideal S50000x128 .f32) (r : Fin 50000) (k : Fin 128) :
    aggregate128 src dst y (ix2 r k)
      = 0 + ∑ e : Fin 850000, if (asColumn dst (ix2 e (0 : Fin 1))).toInt = (r.val : ℤ)
          then y (ix2 (RowScatter.gRow 50000 (by decide) (asColumn (wrapped src)) e) k) else 0 := by
  unfold aggregate128
  refine (RowScatter.scatterAdd_rowScatter scatter_S50000x128_S850000x1_S850000x128_1_0_0_1_wf _ _ _ r k).trans ?_
  refine congrArg₂ (· + ·) (EdgeFacts.zero_splat_apply _ _) (Finset.sum_congr rfl fun e _ => ?_)
  rw [show Host.gather gather_S50000x128_S850000x1_S850000x128_1_0_n_n_0_1_1128 y (asColumn (wrapped src)) (ix2 e k)
      = y (ix2 (RowScatter.gRow 50000 (by decide) (asColumn (wrapped src)) e) k) from
    RowScatter.gather_rowGather (by decide) gather_S50000x128_S850000x1_S850000x128_1_0_n_n_0_1_1128_wf y _ e k]

/-- The aggregation of 64-wide rows at `(r, c)`. -/
theorem agg64_apply (src dst : IVec S850000 32) (y : FVec Ideal S50000x64 .f32) (r : Fin 50000) (c : Fin 64) :
    aggregate64 src dst y (ix2 r c)
      = 0 + ∑ e : Fin 850000, if (asColumn dst (ix2 e (0 : Fin 1))).toInt = (r.val : ℤ)
          then y (ix2 (RowScatter.gRow 50000 (by decide) (asColumn (wrapped src)) e) c) else 0 := by
  unfold aggregate64
  refine (RowScatter.scatterAdd_rowScatter scatter_S50000x64_S850000x1_S850000x64_1_0_0_1_wf _ _ _ r c).trans ?_
  refine congrArg₂ (· + ·) (EdgeFacts.zero_splat_apply _ _) (Finset.sum_congr rfl fun e _ => ?_)
  rw [show Host.gather gather_S50000x64_S850000x1_S850000x64_1_0_n_n_0_1_164 y (asColumn (wrapped src)) (ix2 e c)
      = y (ix2 (RowScatter.gRow 50000 (by decide) (asColumn (wrapped src)) e) c) from
    RowScatter.gather_rowGather (by decide) gather_S50000x64_S850000x1_S850000x64_1_0_n_n_0_1_164_wf y _ e c]

/-- Entry `(r, c)` of the kernel's result is the network in its pre-scaled form. -/
theorem value_apply (x0 : FVec Ideal S50000x128 .f32) (x1 : IVec S2x800000 32) (w1 : FVec Ideal S128x128 .f32) (b1 : FVec Ideal S128 .f32)
    (w2 : FVec Ideal S128x64 .f32) (b2 : FVec Ideal S64 .f32) (r : Fin 50000) (c : Fin 64) :
    value x0 x1 w1 b1 w2 b2 (ix2 r c)
      = netPre (D x1) (s x1) (l x1) (fun i a => x0 (ix2 i a)) (fun a k => w1 (ix2 a k)) (fun k => b1 (ix1 k))
          (fun k o => w2 (ix2 k o)) (fun o => b2 (ix1 o)) r c := by
  unfold value
  simp only [ThirdLaunch.arr_ix2, SecondLaunch.arr_ix2, FirstLaunch.arr_ix2, agg64_apply, agg128_apply, factorCol_apply,
    bias1_apply, bias2_apply]
  rfl

end Cert.KernelIdeal.Whole

end
-- ==== Proof.ReferenceNet.lean ====
/-
  The idealized reference's result read at an entry: the network with the node factors applied per edge.

  From the reference's own host terms: the factor of node r is the factor vector's entry r; the source row of edge e
  is the row its gathers read (the wrapped source index, read signed, clamped into the node range), the same for the
  rows of features and for the factor; the row at which the second factor is read is the wrapped destination index
  clamped likewise; the row edge e lands in is its destination index read signed. An edge that lands in node r has a
  destination index that is not negative, so its wrapped, clamped destination is r itself. Each scatter read at
  (r, c) is 0 plus the sum, over the edges landing in r, of the gathered row's entry c times the edge's product of
  factors; a dot_general is the plain sum over the shared axis. Put together, entry (r, c) of the result is the
  network in its per-edge form.
-/
import proofs.«117799_j26852135534760_2_alg».proof.Proof.RefRead
import proofs.«117799_j26852135534760_2_alg».proof.Proof.ScaledAggregation
import proofs.«117799_j26852135534760_2_alg».proof.Proof.EdgeFacts
import proofs.«117799_j26852135534760_2_alg».proof.Proof.LibRowScatter
import proofs.«117799_j26852135534760_2_alg».proof.Proof.LibVecGather
import proofs.«117799_j26852135534760_2_alg».proof.Proof.LibKeepdims
import Idealize.ShloMosaic.PureOps.Ideal.Laws

set_option maxRecDepth 16384

noncomputable section

open scoped BigOperators

namespace Cert.ReferenceIdeal.Net

open Cert.ReferenceIdeal Cert.ReferenceIdeal.Gen Cert.ReferenceIdeal.ReadP Cert.ScaledAggregation
open Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S128x128, .f32⟩ : BufTy).Contents (Elt Ideal))
  (x3 : (⟨S128, .f32⟩ : BufTy).Contents (Elt Ideal)) (x4 : (⟨S128x64, .f32⟩ : BufTy).Contents (Elt Ideal)) (x5 : (⟨S64, .f32⟩ : BufTy).Contents (Elt Ideal))

/-- Node `r`'s factor. -/
def D (r : Fin 50000) : EReal := val_main_v14 (F := Ideal) x1 (ix1 r)

/-- The row the gathers read for edge `e`. -/
def s (e : Fin 850000) : Fin 50000 := RowScatter.gRow 50000 (by decide) (val_main_v36 (F := Ideal) x1) e

/-- The row at which the second factor is read for edge `e`. -/
def t (e : Fin 850000) : Fin 50000 := RowScatter.gRow 50000 (by decide) (val_main_v27 (F := Ideal) x1) e

/-- The row edge `e`'s update lands in, as an integer. -/
def l (e : Fin 850000) : ℤ := (val_main_v42 (F := Ideal) x1 (ix2 e (0 : Fin 1))).toInt

/-! ## The graph's facts -/

/-- The factor lies in `[0, ∞)`. -/
theorem D_range (r : Fin 50000) : 0 ≤ D x1 r ∧ D x1 r ≠ ⊤ := by
  have hz : val_main_v11 (F := Ideal) (ix1 r) = 0 :=
    (show val_main_v11 (F := Ideal) (ix1 r) = broadcastInDim S50000 ![] bcast_S_S50000 (constant (F := Ideal) S_ .f32 0x00000000#32) (ix1 r)
      from rfl).trans (EdgeFacts.zero_splat_apply _ _)
  have hz' : val_main_call0_v1 (F := Ideal) (ix1 r) = 0 :=
    (show val_main_call0_v1 (F := Ideal) (ix1 r) = broadcastInDim S50000 ![] bcast_S_S50000 (constant (F := Ideal) S_ .f32 0x00000000#32) (ix1 r)
      from rfl).trans (EdgeFacts.zero_splat_apply _ _)
  unfold D
  rw [val_main_v14_apply, val_main_v12_apply, val_main_v13_apply, hz, hz']
  generalize val_main_v10 (F := Ideal) x1 (ix1 r) = d
  exact EdgeFacts.factor_range d

/-- The destination column at `(e, 0)`. -/
theorem dstCol_apply (e : Fin 850000) : val_main_v42 (F := Ideal) x1 (ix2 e (0 : Fin 1)) = val_main_v6 (F := Ideal) x1 (ix1 e) := by
  unfold val_main_v42
  exact Keepdims.column_apply bcast_S850000_S850000x1_0 _ e

/-- The wrapped destination column at `(e, 0)`. -/
theorem wrappedDstCol_apply (e : Fin 850000) :
    val_main_v27 (F := Ideal) x1 (ix2 e (0 : Fin 1))
      = Scalar.select (IntOp.cmpi .slt (val_main_v6 (F := Ideal) x1 (ix1 e)) 0#32) (IntOp.addi (val_main_v6 (F := Ideal) x1 (ix1 e)) 50000#32)
          (val_main_v6 (F := Ideal) x1 (ix1 e)) := by
  unfold val_main_v27
  exact Keepdims.column_apply bcast_S850000_S850000x1_0 _ e

/-- An edge that lands in node `r` reads its second factor at `r`. -/
theorem t_of_lands (e : Fin 850000) (r : Fin 50000) (h : l x1 e = (r.val : ℤ)) : t x1 e = r := by
  unfold l at h
  rw [dstCol_apply] at h
  refine EdgeFacts.gRow_of_toInt (by decide) _ e r ?_
  rw [wrappedDstCol_apply, EdgeFacts.wrap_of_nonneg _ (by rw [h]; exact Int.natCast_nonneg _)]
  exact h

/-! ## The pieces at an entry -/

/-- The source columns of the three gathers are one column. -/
theorem srcCol_factor : val_main_v20 (F := Ideal) x1 = val_main_v36 (F := Ideal) x1 := rfl
theorem srcCol_second : val_main_v54 (F := Ideal) x1 = val_main_v36 (F := Ideal) x1 := rfl
/-- The destination columns of the two scatters are one column. -/
theorem dstCol_second : val_main_v60 (F := Ideal) x1 = val_main_v42 (F := Ideal) x1 := rfl

/-- The edge's product of factors. -/
theorem norm_apply (e : Fin 850000) : val_main_v29 (F := Ideal) x1 (ix1 e) = D x1 (s x1 e) * D x1 (t x1 e) := by
  rw [val_main_v29_apply, Ideal.mulf_def]
  unfold val_main_v21 val_main_v28
  rw [srcCol_factor]
  refine congrArg₂ (· * ·) ?_ ?_
  · exact VecGather.gather_vecGather (by decide) gather_S50000_S850000x1_S850000_n_0_n_n_0_1_1_wf _ _ e
  · exact VecGather.gather_vecGather (by decide) gather_S50000_S850000x1_S850000_n_0_n_n_0_1_1_wf _ _ e

/-- The first dense transform at `(i, k)`. -/
theorem dense1_apply (i : Fin 50000) (k : Fin 128) :
    val_main_v30 (F := Ideal) x0 x2 (ix2 i k) = ∑ a : Fin 128, x0 (ix2 i a) * x2 (ix2 a k) := by
  rw [val_main_v30_apply]
  refine Finset.sum_congr rfl fun a _ => congrArg₂ (· * ·) (congrArg x0 ?_) (congrArg x2 ?_)
  · funext d; match d with
    | ⟨0, _⟩ => rfl
    | ⟨1, _⟩ => rfl
  · funext d; match d with
    | ⟨0, _⟩ => rfl
    | ⟨1, _⟩ => rfl

/-- The first layer's per-edge rows at `(e, k)`. -/
theorem edge1_apply (e : Fin 850000) (k : Fin 128) :
    val_main_v40 (F := Ideal) x0 x1 x2 (ix2 e k)
      = (∑ a : Fin 128, x0 (ix2 (s x1 e) a) * x2 (ix2 a k)) * (D x1 (s x1 e) * D x1 (t x1 e)) := by
  rw [val_main_v40_apply, Ideal.mulf_def]
  refine congrArg₂ (· * ·) ?_ ?_
  · unfold val_main_v37
    exact (RowScatter.gather_rowGather (by decide) gather_S50000x128_S850000x1_S850000x128_1_0_n_n_0_1_1128_wf _ _ e k).trans
      (dense1_apply x0 x2 _ k)
  · unfold val_main_v39 val_main_v38
    exact (Keepdims.rows_apply bcast_S850000_S850000x1_0 bcast_S850000x1_S850000x128_0_1 _ e k).trans (norm_apply x1 e)

/-- The first aggregation at `(r, k)`. -/
theorem agg1_apply (r : Fin 50000) (k : Fin 128) :
    val_main_v43 (F := Ideal) x0 x1 x2 (ix2 r k)
      = aggEdge (D x1) (s x1) (t x1) (l x1) (fun i => ∑ a : Fin 128, x0 (ix2 i a) * x2 (ix2 a k)) r := by
  unfold val_main_v43
  refine (RowScatter.scatterAdd_rowScatter scatter_S50000x128_S850000x1_S850000x128_1_0_0_1_wf _ _ _ r k).trans ?_
  unfold aggEdge
  have hz : val_main_v41 (F := Ideal) (ix2 r k) = 0 :=
    (show val_main_v41 (F := Ideal) (ix2 r k) = broadcastInDim S50000x128 ![] bcast_S_S50000x128 (constant (F := Ideal) S_ .f32 0x00000000#32) (ix2 r k)
      from rfl).trans (EdgeFacts.zero_splat_apply _ _)
  refine congrArg₂ (· + ·) hz (Finset.sum_congr rfl fun e _ => ?_)
  rw [edge1_apply]
  rfl

/-- The hidden activation at `(i, k)`. -/
theorem hidden_apply (i : Fin 50000) (k : Fin 128) :
    val_main_v47 (F := Ideal) x0 x1 x2 x3 (ix2 i k)
      = max (aggEdge (D x1) (s x1) (t x1) (l x1) (fun i' => ∑ a : Fin 128, x0 (ix2 i' a) * x2 (ix2 a k)) i + x3 (ix1 k)) 0 := by
  have hz : val_main_call1_v0 (F := Ideal) (ix2 i k) = 0 :=
    (show val_main_call1_v0 (F := Ideal) (ix2 i k) = broadcastInDim S50000x128 ![] bcast_S_S50000x128 (constant (F := Ideal) S_ .f32 0x00000000#32) (ix2 i k)
      from rfl).trans (EdgeFacts.zero_splat_apply _ _)
  rw [val_main_v47_apply, val_main_v46_apply, Ideal.maximumf_def, Ideal.addf_def, agg1_apply, hz]
  refine congrArg₂ max (congrArg₂ (· + ·) rfl ?_) rfl
  unfold val_main_v45 val_main_v44
  exact Keepdims.cols_apply bcast_S128_S1x128_1 bcast_S1x128_S50000x128_0_1 x3 i k

/-- The second dense transform at `(i, c)`. -/
theorem dense2_apply (i : Fin 50000) (c : Fin 64) :
    val_main_v48 (F := Ideal) x0 x1 x2 x3 x4 (ix2 i c)
      = ∑ k : Fin 128, val_main_v47 (F := Ideal) x0 x1 x2 x3 (ix2 i k) * x4 (ix2 k c) := by
  rw [val_main_v48_apply]
  refine Finset.sum_congr rfl fun a _ => congrArg₂ (· * ·) (congrArg (val_main_v47 (F := Ideal) x0 x1 x2 x3) ?_) (congrArg x4 ?_)
  · funext d; match d with
    | ⟨0, _⟩ => rfl
    | ⟨1, _⟩ => rfl
  · funext d; match d with
    | ⟨0, _⟩ => rfl
    | ⟨1, _⟩ => rfl

/-- The second layer's per-edge rows at `(e, c)`. -/
theorem edge2_apply (e : Fin 850000) (c : Fin 64) :
    val_main_v58 (F := Ideal) x0 x1 x2 x3 x4 (ix2 e c)
      = (∑ k : Fin 128, val_main_v47 (F := Ideal) x0 x1 x2 x3 (ix2 (s x1 e) k) * x4 (ix2 k c)) * (D x1 (s x1 e) * D x1 (t x1 e)) := by
  rw [val_main_v58_apply, Ideal.mulf_def]
  refine congrArg₂ (· * ·) ?_ ?_
  · unfold val_main_v55
    rw [srcCol_second]
    exact (RowScatter.gather_rowGather (by decide) gather_S50000x64_S850000x1_S850000x64_1_0_n_n_0_1_164_wf _ _ e c).trans
      (dense2_apply x0 x1 x2 x3 x4 _ c)
  · unfold val_main_v57 val_main_v56
    exact (Keepdims.rows_apply bcast_S850000_S850000x1_0 bcast_S850000x1_S850000x64_0_1 _ e c).trans (norm_apply x1 e)

/-- Entry `(r, c)` of the reference's result is the network in its per-edge form. -/
theorem value_apply (r : Fin 50000) (c : Fin 64) :
    val_main_v64 (F := Ideal) x0 x1 x2 x3 x4 x5 (ix2 r c)
      = netEdge (D x1) (s x1) (t x1) (l x1) (fun i a => x0 (ix2 i a)) (fun a k => x2 (ix2 a k)) (fun k => x3 (ix1 k))
          (fun k o => x4 (ix2 k o)) (fun o => x5 (ix1 o)) r c := by
  rw [val_main_v64_apply, Ideal.addf_def]
  unfold netEdge
  refine congrArg₂ (· + ·) ?_ ?_
  · unfold val_main_v61
    rw [dstCol_second]
    refine (RowScatter.scatterAdd_rowScatter scatter_S50000x64_S850000x1_S850000x64_1_0_0_1_wf _ _ _ r c).trans ?_
    unfold aggEdge
    have hz : val_main_v59 (F := Ideal) (ix2 r c) = 0 :=
      (show val_main_v59 (F := Ideal) (ix2 r c) = broadcastInDim S50000x64 ![] bcast_S_S50000x64 (constant (F := Ideal) S_ .f32 0x00000000#32) (ix2 r c)
        from rfl).trans (EdgeFacts.zero_splat_apply _ _)
    refine congrArg₂ (· + ·) hz (Finset.sum_congr rfl fun e _ => ?_)
    rw [edge2_apply]
    simp only [hidden_apply]
    rfl
  · unfold val_main_v63 val_main_v62
    exact Keepdims.cols_apply bcast_S64_S1x64_1 bcast_S1x64_S50000x64_0_1 x5 r c

end Cert.ReferenceIdeal.Net

end
-- ==== Proof.Bridge.lean ====
/-
  The two programs compute one function.

  Entry by entry the kernel's result is the network with the node factors applied per node, before and after each
  aggregation, and the reference's is the network with the factors applied per edge; both read the same graph — the
  same node factors, the same source rows, the same landing rows: the two programs build them from the edge array by
  the same operations — and on that graph the two forms of the network agree (the factors lie in [0, ∞), and an
  edge that lands in a node reads its second factor there).
-/
import proofs.«117799_j26852135534760_2_alg».proof.Proof.KernelNet
import proofs.«117799_j26852135534760_2_alg».proof.Proof.ReferenceNet

set_option maxRecDepth 16384

noncomputable section

namespace Cert.Bridge

open Idealize.ShloMosaic Idealize.ShloMosaic.ValueIdx Cert.ScaledAggregation

/-- The node factors the two programs compute are one vector. -/
theorem factor_eq (x1 : IVec Cert.KernelIdeal.S2x800000 32) : Cert.KernelIdeal.Whole.D x1 = Cert.ReferenceIdeal.Net.D x1 := rfl

/-- The source rows the two programs gather at are the same rows. -/
theorem source_eq (x1 : IVec Cert.KernelIdeal.S2x800000 32) : Cert.KernelIdeal.Whole.s x1 = Cert.ReferenceIdeal.Net.s x1 := rfl

/-- The rows the two programs' scatters land in are the same rows. -/
theorem landing_eq (x1 : IVec Cert.KernelIdeal.S2x800000 32) : Cert.KernelIdeal.Whole.l x1 = Cert.ReferenceIdeal.Net.l x1 := rfl

/-- The kernel's result array is the reference's. -/
theorem value_eq (x0 : FVec Ideal Cert.KernelIdeal.S50000x128 .f32) (x1 : IVec Cert.KernelIdeal.S2x800000 32)
    (x2 : FVec Ideal Cert.KernelIdeal.S128x128 .f32) (x3 : FVec Ideal Cert.KernelIdeal.S128 .f32)
    (x4 : FVec Ideal Cert.KernelIdeal.S128x64 .f32) (x5 : FVec Ideal Cert.KernelIdeal.S64 .f32) :
    Cert.KernelIdeal.Whole.value x0 x1 x2 x3 x4 x5 = Cert.ReferenceIdeal.ReadP.val_main_v64 (F := Ideal) x0 x1 x2 x3 x4 x5 := by
  funext i
  obtain ⟨r, c, rfl⟩ : ∃ (r : Fin 50000) (c : Fin 64), i = ix2 r c := ⟨i 0, i 1, eq_ix2 i⟩
  rw [Cert.KernelIdeal.Whole.value_apply, Cert.ReferenceIdeal.Net.value_apply, factor_eq, source_eq, landing_eq]
  exact netPre_eq_netEdge _ _ _ _ (fun r => (Cert.ReferenceIdeal.Net.D_range x1 r).1) (fun r => (Cert.ReferenceIdeal.Net.D_range x1 r).2)
    (Cert.ReferenceIdeal.Net.t_of_lands x1) _ _ _ _ _ r c

end Cert.Bridge

end
-- ==== Proof.lean ====
/-
  Two programs for a two-layer graph convolution with symmetric normalisation, equal on the extended reals.

  The kernel program scales every node's row by the node's factor (the inverse square root of its degree) inside its
  three grid launches — after each dense transform and again after each aggregation — and aggregates plain gathered
  rows on the host in between; the reference scales every gathered row by its edge's product of two factors, on the
  host. A factor in [0, ∞) moves out of a finite sum of extended reals, whatever the summands, so the two agree for
  every input: the equality uses nothing of the inputs' finiteness.

  The frames of the two kernel programs are the generated ones; the reference's is its run with the result dropped.
  The idealization rewrote nothing, so there is nothing to preserve. For the value claim: the kernel's run names the
  result buffer's contents at the last boundary, which read back through the three launches and the two aggregations
  are one function of the arguments (KernelValue); entry by entry that function is the network in its pre-scaled
  form (KernelNet), the reference's run is the network in its per-edge form (ReferenceNet), and the two forms agree
  (ScaledAggregation, Bridge).
-/
import proofs.«117799_j26852135534760_2_alg».proof.Defs
import proofs.«117799_j26852135534760_2_alg».proof.Proof.Gen.Kernel
import proofs.«117799_j26852135534760_2_alg».proof.Proof.Gen.Kernel.Skeleton
import proofs.«117799_j26852135534760_2_alg».proof.Proof.Gen.Kernel.Launch
import proofs.«117799_j26852135534760_2_alg».proof.Proof.Gen.Kernel.Points
import proofs.«117799_j26852135534760_2_alg».proof.Proof.Gen.Kernel.Frame
import proofs.«117799_j26852135534760_2_alg».proof.Proof.Gen.KernelIdeal
import proofs.«117799_j26852135534760_2_alg».proof.Proof.Gen.KernelIdeal.Skeleton
import proofs.«117799_j26852135534760_2_alg».proof.Proof.Gen.KernelIdeal.Launch
import proofs.«117799_j26852135534760_2_alg».proof.Proof.Gen.KernelIdeal.Points
import proofs.«117799_j26852135534760_2_alg».proof.Proof.Gen.KernelIdeal.Frame
import proofs.«117799_j26852135534760_2_alg».proof.Proof.Gen.ReferenceIdeal
import proofs.«117799_j26852135534760_2_alg».proof.Proof.Gen.Pre_finite_inputs
import proofs.«117799_j26852135534760_2_alg».proof.Proof.RefRun
import proofs.«117799_j26852135534760_2_alg».proof.Proof.RefRead
import proofs.«117799_j26852135534760_2_alg».proof.Proof.Result
import proofs.«117799_j26852135534760_2_alg».proof.Proof.KernelValue
import proofs.«117799_j26852135534760_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: the kernel's run ends at
    its function of the arguments, the reference's at its own, and the two functions are one. -/
theorem algebraic : Cert.algebraic_KernelIdeal_ReferenceIdeal := by
  intro m ρ m' ρ' _ hagree
  refine ⟨fun c => Cert.KernelIdeal.Whole.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]
    exact (Cert.Bridge.value_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
